-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S8192x1024 : Shape := ⟨2, ![8192, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_

variable [Facts]

def fn {F : FTy → Type} [FloatOps F] (main_arg0 : FVec F S4096x1024 .f32) (main_arg1 : FVec F S8192x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Kernel.lean ====
abbrev S4096x1024 : Shape := ⟨2, ![4096, 1024]⟩
abbrev S8192x1024 : Shape := ⟨2, ![8192, 1024]⟩
abbrev S_ : Shape := ⟨0, ![]⟩
abbrev S4096 : Shape := ⟨1, ![4096]⟩
abbrev S4096x1 : Shape := ⟨2, ![4096, 1]⟩
abbrev S8192 : Shape := ⟨1, ![8192]⟩
abbrev S1x8192 : Shape := ⟨2, ![1, 8192]⟩
abbrev S4096x8192 : Shape := ⟨2, ![4096, 8192]⟩
abbrev S1024x1024 : Shape := ⟨2, ![1024, 1024]⟩
abbrev S512x1024 : Shape := ⟨2, ![512, 1024]⟩
abbrev S1024x1 : Shape := ⟨2, ![1024, 1]⟩
abbrev S1x512 : Shape := ⟨2, ![1, 512]⟩
abbrev S1024x512 : Shape := ⟨2, ![1024, 512]⟩

abbrev nBuf : Space → Nat
  | .hbm => 11
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S8192x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S1x8192, .f32⟩
  | .hbm, ⟨10, _⟩ => ⟨S4096x8192, .f32⟩
  | .local _ .vmem, ⟨0, _⟩ => ⟨S1024x1024, .f32⟩
  | .local _ .vmem, ⟨1, _⟩ => ⟨S1024x1024, .f32⟩
  | .local _ .vmem, ⟨2, _⟩ => ⟨S512x1024, .f32⟩
  | .local _ .vmem, ⟨3, _⟩ => ⟨S512x1024, .f32⟩
  | .local _ .vmem, ⟨4, _⟩ => ⟨S1024x1, .f32⟩
  | .local _ .vmem, ⟨5, _⟩ => ⟨S1024x1, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S4096x1024_S4096_d1 : S4096x1024.ReducesTo [1] S4096
  h_S_ : 0 < S_.numel
  shapeCasts_S4096_S4096x1 : S4096.ShapeCasts S4096x1
  reducesTo_S8192x1024_S8192_d1 : S8192x1024.ReducesTo [1] S8192
  shapeCasts_S8192_S1x8192 : S8192.ShapeCasts S1x8192
  inb_S1024x1024_S1024x1024_0_0 : ∀ a, (![0, 0] : Fin 2 → Nat) a + S1024x1024.size a ≤ S1024x1024.size a
  h_S1024x1024 : 0 < S1024x1024.numel
  inb_S512x1024_S512x1024_0_0 : ∀ a, (![0, 0] : Fin 2 → Nat) a + S512x1024.size a ≤ S512x1024.size a
  h_S512x1024 : 0 < S512x1024.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  bitsLt_bf16_f32 : FTy.bits .bf16 < FTy.bits .f32
  transposes_S512x1024_p1_0_S1024x512 : S512x1024.Transposes [1, 0] S1024x512
  broadcasts_S1024x1_S1024x512 : S1024x1.Broadcasts S1024x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  dot_S1024x1024_S1024x512_S1024x512_1_0_0_1_n_n_wf : DotDims.WF S1024x1024 S1024x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x1024.size a
  hwx0_1 : ∀ i : grid0.Coords, EltTy.bits .f32 = 32 ∨ (Rect.block (s := S8192x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .f32 = 32 ∨ (Rect.block (s := S4096x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .f32 = 32 ∨ (Rect.block (s := S1x8192) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S4096x8192.size a
  hwx0_4 : ∀ i : grid0.Coords, EltTy.bits .f32 = 32 ∨ (Rect.block (s := S4096x8192) S1024x512.size (cc0_transform_4 i) (hinb0_4 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S8192x1024 : Shape := ⟨2, ![8192, 1024]⟩
abbrev S_ : Shape := ⟨0, ![]⟩
abbrev S4096 : Shape := ⟨1, ![4096]⟩
abbrev S8192 : Shape := ⟨1, ![8192]⟩
abbrev S4096x8192 : Shape := ⟨2, ![4096, 8192]⟩
abbrev S4096x1 : Shape := ⟨2, ![4096, 1]⟩
abbrev S1x8192 : Shape := ⟨2, ![1, 8192]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S8192x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S4096x8192, .f32⟩
  | .hbm, ⟨9, _⟩ => ⟨S4096x1, .f32⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S4096x8192, .f32⟩
  | .hbm, ⟨14, _⟩ => ⟨S4096x8192, .f32⟩
  | .hbm, ⟨15, _⟩ => ⟨S1x8192, .f32⟩
  | .hbm, ⟨16, _⟩ => ⟨S4096x8192, .f32⟩
  | .hbm, ⟨17, _⟩ => ⟨S4096x8192, .f32⟩
  | .hbm, ⟨18, _⟩ => ⟨S4096x8192, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  reducesTo_S4096x1024_S4096_d1 : S4096x1024.ReducesTo [1] S4096
  h_S_ : 0 < S_.numel
  reducesTo_S8192x1024_S8192_d1 : S8192x1024.ReducesTo [1] S8192
  bcast_S4096_S4096x1_0 : S4096.BroadcastsInDim S4096x1 (![0] : Fin 1 → Fin S4096x1.rank)
  bcast_S_S4096x8192 : S_.BroadcastsInDim S4096x8192 (![] : Fin 0 → Fin S4096x8192.rank)
  bcast_S4096x1_S4096x8192_0_1 : S4096x1.BroadcastsInDim S4096x8192 (![0, 1] : Fin 2 → Fin S4096x8192.rank)
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  dot_S4096x1024_S8192x1024_S4096x8192_1_1_0_0_n_n_wf : DotDims.WF S4096x1024 S8192x1024 S4096x8192 [1] [1] [0] [0] [] []

variable [Facts₀]

def dot_S4096x1024_S8192x1024_S4096x8192_1_1_0_0_n_n : DotDims S4096x1024 S8192x1024 S4096x8192 where
  lhsContracting := [1]
  rhsContracting := [1]
  lhsNonContracting := [0]
  rhsNonContracting := [0]
  lhsBatch := []
  rhsBatch := []
  wf := dot_S4096x1024_S8192x1024_S4096x8192_1_1_0_0_n_n_wf

class Facts : Prop extends Facts₀ where

variable [Facts]
-- ==== Proof.LibPlainMatmul.lean ====
/-
  A plain matrix product read at one entry.

  The matrix unit's contraction with dimension numbers "rows × contraction times contraction × columns"
  (left contracting axis 1, right contracting axis 0, no batch axis), accumulated into the zero splat, is at the
  ideal values the textbook product: entry (i, j) is the sum over the contraction coordinate k of
  l (i, k) · r (k, j).  The statement is over any dimension record whose six lists are those of the plain
  product, so it applies to a printed record whatever name it carries.
-/
import Idealize.ShloMosaic.Lib.ValueIdx
import Idealize.ShloMosaic.PureOps.Ideal.Laws

noncomputable section

open scoped BigOperators

namespace Idealize.ShloMosaic.PlainMatmul

open Idealize.ShloMosaic Idealize.ShloMosaic.ValueIdx

/-- Entry (i, j) of an M×K by K×N `tpu.matmul` into the zero accumulator, at the ideal values: the sum over the
    K contraction coordinates of the left operand's row entry times the right operand's column entry. -/
theorem matmul_zero_apply {M K N : Nat} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (i : Fin M) (j : Fin N) :
    matmul D prec l r (constant ⟨2, ![M, N]⟩ .f32 0x00000000#32) (ix2 i j)
      = ∑ k : Fin K, l (ix2 i k) * r (ix2 k j) := by
  obtain ⟨lc, rc, ln, rn, lb, rb, wf⟩ := D
  dsimp only at hlc hrc hln hrn hlb hrb
  subst hlc hrc hln hrn hlb hrb
  refine (Ideal.matmul_constant_zero_apply _ prec l r (ix2 i j)).trans ?_
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 i k :=
    funext fun a => Fin.ext (by
      match a with
      | ⟨0, _⟩ =>
        unfold DotDims.lhsIdx
        rw [dif_neg (by exact List.not_mem_nil), dif_pos (by exact List.mem_singleton.mpr rfl)]
        rfl
      | ⟨1, _⟩ => exact (DotDims.lhsIdx_val_of_single _ rfl _ _).trans hk)
  have er : DotDims.rhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 k j :=
    funext fun a => Fin.ext (by
      match a with
      | ⟨0, _⟩ => exact (DotDims.rhsIdx_val_of_single _ rfl _ _).trans hk
      | ⟨1, _⟩ =>
        unfold DotDims.rhsIdx
        rw [dif_neg (by exact List.not_mem_nil), dif_pos (by exact List.mem_singleton.mpr rfl)]
        rfl)
  rw [el, er]

end Idealize.ShloMosaic.PlainMatmul

end
-- ==== Proof.LibKeptColumn.lean ====
/-
  Two layout facts about a column kept after a row reduction (a sum with the reduced axis kept as a unit axis):
  a vector of length a cast to an [a, 1] column, and an [a, 1] column spread along the rows of an [a, b] array, each read
  at an index.
-/
import Idealize.ShloMosaic.Lib.Pipeline.Value
import Idealize.ShloMosaic.Lib.ValueIdx

noncomputable section

namespace Idealize.ShloMosaic.KeptColumn

open Idealize.ShloMosaic Idealize.ShloMosaic.ValueIdx

variable {α : Type}

/-- An `[a]` array cast to an `[a, 1]` column reads, at `(i, u)`, the operand at `i`, whatever the unit coordinate `u`:
    both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`: the unit axis is read at 0,
    the row axis at `p` (when `a = 1` the only row is row 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.KeptColumn

end
-- ==== Proof.Payload.lean ====
/-
  What the kernel body stores, read at one entry of the output block.

  The body loads a [1024, 1024] block of x, a [512, 1024] block of y, a [1024, 1] column of squared norms of the
  x rows and a [1, 512] row of squared norms of the y rows.  It multiplies the x block by the transpose of the y
  block on the matrix unit (the roundings to the narrower format on the way in are the identity on the ideal
  values), doubles the product, subtracts it from the column spread along the rows, adds the row spread along the
  columns, and subtracts all of that from zero.  At entry (p, q) this is

      0 - ((nx (p, 0) - 2 · Σ_k bx (p, k) · by (q, k)) + ny (0, q)).
-/
import proofs.«178592_j78769700208929_2_alg».proof.Proof.Gen.KernelIdeal.Skeleton
import proofs.«178592_j78769700208929_2_alg».proof.Proof.LibPlainMatmul
import proofs.«178592_j78769700208929_2_alg».proof.Proof.LibKeptColumn
import Idealize.ShloMosaic.Lib.ValueLayout

noncomputable section

open scoped BigOperators

namespace Cert.KernelIdeal.Payload

open Cert.KernelIdeal Cert.KernelIdeal.Gen Idealize.ShloMosaic Idealize.ShloMosaic.ValueIdx

/-- The stored block at entry (p, q), from the four loaded blocks. -/
theorem pay_apply (bx : Vec Ideal S1024x1024 .f32) (bY : Vec Ideal S512x1024 .f32) (nx : Vec Ideal S1024x1 .f32)
    (ny : Vec Ideal S1x512 .f32) (p : Fin 1024) (q : Fin 512) :
    k0_pay1 (F := Ideal) bx bY nx ny (ix2 p q)
      = Ideal.ofBits .f32 0x00000000#32
          - ((nx (ix2 p (0 : Fin 1)) - Ideal.ofBits .f32 0x40000000#32 * ∑ k : Fin 1024, bx (ix2 p k) * bY (ix2 q k))
              + ny (ix2 (0 : Fin 1) q)) := by
  unfold k0_pay1
  dsimp only
  rw [subf_apply, addf_apply, subf_apply, mulf_apply, broadcast_apply, broadcast_apply,
    KeptColumn.broadcastTo_a1_ab_apply, broadcastTo_1b_ab_apply, shapeCast_self, shapeCast_self,
    PlainMatmul.matmul_zero_apply _ rfl rfl rfl rfl rfl rfl]
  refine congrArg (fun s => Ideal.ofBits .f32 0x00000000#32
      - ((nx (ix2 p (0 : Fin 1)) - Ideal.ofBits .f32 0x40000000#32 * s) + ny (ix2 (0 : Fin 1) q)))
    (Finset.sum_congr rfl fun k _ => congrArg (bx (ix2 p k) * ·) ?_)
  exact transpose_ix2_apply (a := 512) (b := 1024) _ _ k q

end Cert.KernelIdeal.Payload

end
-- ==== Proof.Distance.lean ====
/-
  The function both programs compute, stated once over the two argument arrays.

  For x of shape [4096, 1024] and y of shape [8192, 1024], entry (p, q) of the result is

      -((|x_p|² - 2 · ⟨x_p, y_q⟩) + |y_q|²)

  where |a_r|² is the sum over the 1024 columns of the squares of row r, accumulated from the zero word, and
  ⟨x_p, y_q⟩ is the sum over the columns of the products of the two rows: minus the squared Euclidean distance
  of row p of x from row q of y, expanded.  The literals stay as their words: the same words appear on both sides
  and are never evaluated, except that the zero word is the number zero, which is what turns a subtraction from
  zero into a negation.
-/
import Idealize.ShloMosaic.Lib.ValueIdx
import Idealize.ShloMosaic.PureOps.Ideal.Laws

noncomputable section

open scoped BigOperators

namespace Cert.Distance

open Idealize.ShloMosaic Idealize.ShloMosaic.ValueIdx

/-- The squared norm of row `r` of an array with 1024 columns: the sum of the squares of its entries, from the zero word. -/
def rowSq {n : Nat} (a : (⟨2, ![n, 1024]⟩ : Shape).Idx → EReal) (r : Fin n) : EReal :=
  Ideal.ofBits .f32 0x00000000#32 + ∑ k : Fin 1024, a (ix2 r k) * a (ix2 r k)

/-- The inner product of row `p` of `x` with row `q` of `y`. -/
def cross (x : (⟨2, ![4096, 1024]⟩ : Shape).Idx → EReal) (y : (⟨2, ![8192, 1024]⟩ : Shape).Idx → EReal)
    (p : Fin 4096) (q : Fin 8192) : EReal :=
  ∑ k : Fin 1024, x (ix2 p k) * y (ix2 q k)

/-- Entry (p, q): minus the expanded squared distance of row `p` of `x` from row `q` of `y`. -/
def entry (x : (⟨2, ![4096, 1024]⟩ : Shape).Idx → EReal) (y : (⟨2, ![8192, 1024]⟩ : Shape).Idx → EReal)
    (p : Fin 4096) (q : Fin 8192) : EReal :=
  -((rowSq x p - Ideal.ofBits .f32 0x40000000#32 * cross x y p q) + rowSq y q)

/-- The whole result array. -/
def negSqDist (x : (⟨2, ![4096, 1024]⟩ : Shape).Idx → EReal) (y : (⟨2, ![8192, 1024]⟩ : Shape).Idx → EReal) :
    (⟨2, ![4096, 8192]⟩ : Shape).Idx → EReal :=
  fun i => entry x y (i 0) (i 1)

theorem negSqDist_ix2 (x : (⟨2, ![4096, 1024]⟩ : Shape).Idx → EReal) (y : (⟨2, ![8192, 1024]⟩ : Shape).Idx → EReal)
    (p : Fin 4096) (q : Fin 8192) : negSqDist x y (ix2 p q) = entry x y p q := rfl

/-- Subtracting from the zero word is negation, on every extended real. -/
theorem zero_word_sub (a : EReal) : Ideal.ofBits .f32 0x00000000#32 - a = -a := by
  rw [Ideal.ofBits_zero_f32, zero_sub]

end Cert.Distance

end
-- ==== Proof.LibHostRowSum.lean ====
/-
  The host's sum along axis 1 of an [a, b] array, read at a row, at the ideal values: at row r it is the initial
  value plus the sum over d of the entries (r, d).
-/
import Idealize.ShloMosaic.Lib.ValueIdx
import Idealize.ShloMosaic.PureOps.Ideal.Laws

noncomputable section

open scoped BigOperators

namespace Idealize.ShloMosaic.HostRowSum

open Idealize.ShloMosaic Idealize.ShloMosaic.ValueIdx

/-- The host's sum along axis 1 of an [a, b] array from an initial value, at row r: the initial value plus the sum of
    row r. -/
theorem hostRowsum_apply {a b : ℕ} (x : (⟨2, ![a, b]⟩ : Shape).Idx → EReal) (init : EReal)
    (h' : (⟨2, ![a, b]⟩ : Shape).ReducesTo [1] ⟨1, ![a]⟩) (h : (⟨2, ![a, b]⟩ : Shape).Reduces [1] ⟨1, ![a]⟩) (r : Fin a) :
    Ideal.hostReduceAdd h' x init (ix1 r) = init + ∑ d : Fin b, x (ix2 r d) := by
  refine (Ideal.hostReduceAdd_single h' h x init (ix1 r)).trans ?_
  refine congrArg (init + ·) (Finset.sum_congr rfl fun d _ => congrArg x (funext fun ax => Fin.ext ?_))
  match ax with
  | ⟨0, _⟩ => rfl
  | ⟨1, _⟩ => rfl

/-- The host's reduce-add as the programs spell it (the initial value a rank-0 array), along axis 1 of an [a, b] array,
    at row r. -/
theorem hostReduceAdd_rows_apply {a b : ℕ} (x : FVec Ideal ⟨2, ![a, b]⟩ .f32) (init : FVec Ideal ⟨0, ![]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduceAdd (F := Ideal) x init h' hu (ix1 r) = init (Shape.Idx.first hu) + ∑ d : Fin b, x (ix2 r d) :=
  hostRowsum_apply x (init (Shape.Idx.first hu)) h' h r

end Idealize.ShloMosaic.HostRowSum

end
-- ==== Proof.Norms.lean ====
/-
  The two norm arrays the kernel's program computes before the launch.

  Before the region, the host squares x entrywise, sums each row from the zero word and lays the 4096 sums out as
  a [4096, 1] column; it does the same with y and lays the 8192 sums out as a [1, 8192] row.  Read at an index,
  the column at (r, 0) is the squared norm of row r of x, and the row at (0, r) the squared norm of row r of y.
-/
import proofs.«178592_j78769700208929_2_alg».proof.Proof.Gen.KernelIdeal.Frame
import proofs.«178592_j78769700208929_2_alg».proof.Proof.Distance
import proofs.«178592_j78769700208929_2_alg».proof.Proof.LibKeptColumn
import proofs.«178592_j78769700208929_2_alg».proof.Proof.LibHostRowSum
import Idealize.ShloMosaic.Lib.StableHlo.Run
import Idealize.ShloMosaic.Lib.ValueLayout

noncomputable section

open scoped BigOperators

namespace Cert.KernelIdeal.Norms

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The column of x norms as the region finds it: the row sums of the squares, cast to a column. -/
theorem xnorm_array (c : Dev nD) :
    (V m c main_v2 : S4096x1.Idx → EReal)
      = shapeCast S4096x1 (Host.reduceAdd (F := Ideal)
          (mulf (m ((c : Thread nD τ).loc main_arg0)) (m ((c : Thread nD τ).loc main_arg0)))
          (constant (F := Ideal) S_ .f32 0x00000000#32) reducesTo_S4096x1024_S4096_d1 h_S_) shapeCasts_S4096_S4096x1 := by
  dsimp only [Gen.V, Gen.hostOps0]; after_results; rfl

/-- The row of y norms as the region finds it: the row sums of the squares, cast to a single row. -/
theorem ynorm_array (c : Dev nD) :
    (V m c main_v5 : S1x8192.Idx → EReal)
      = shapeCast S1x8192 (Host.reduceAdd (F := Ideal)
          (mulf (m ((c : Thread nD τ).loc main_arg1)) (m ((c : Thread nD τ).loc main_arg1)))
          (constant (F := Ideal) S_ .f32 0x00000000#32) reducesTo_S8192x1024_S8192_d1 h_S_) shapeCasts_S8192_S1x8192 := by
  dsimp only [Gen.V, Gen.hostOps0]; after_results; rfl

/-- Entry (r, 0) of the column is the squared norm of row r of x. -/
theorem xnorm_apply (c : Dev nD) (r : Fin 4096) (u : Fin 1) :
    (V m c main_v2 : S4096x1.Idx → EReal) (ix2 r u) = Cert.Distance.rowSq (m ((c : Thread nD τ).loc main_arg0)) r := by
  rw [xnorm_array, KeptColumn.shapeCast_a_a1_apply,
    HostRowSum.hostReduceAdd_rows_apply _ _ reducesTo_S4096x1024_S4096_d1 (by decide) h_S_ r]
  rfl

/-- Entry (0, r) of the row is the squared norm of row r of y. -/
theorem ynorm_apply (c : Dev nD) (u : Fin 1) (r : Fin 8192) :
    (V m c main_v5 : S1x8192.Idx → EReal) (ix2 u r) = Cert.Distance.rowSq (m ((c : Thread nD τ).loc main_arg1)) r := by
  rw [ynorm_array, shapeCast_a_1a_apply,
    HostRowSum.hostReduceAdd_rows_apply _ _ reducesTo_S8192x1024_S8192_d1 (by decide) h_S_ r]
  rfl

end Cert.KernelIdeal.Norms

end
-- ==== Proof.Blocks.lean ====
/-
  From the blocks the grid points write to the whole output array.

  The grid is 4 × 16: point t works on row block t / 16 of x (1024 rows) and row block t % 16 of y (512 rows), and
  writes the [1024, 512] block of the output at block row t / 16, block column t % 16.  The column of x norms moves
  with the x block and the row of y norms with the y block.  So entry (p, q) of what point t writes is entry
  (1024 · (t / 16) + p, 512 · (t % 16) + q) of the negated expanded squared distance of the argument arrays; the 64
  blocks tile the [4096, 8192] output, so after the run the output array is that function everywhere.
-/
import proofs.«178592_j78769700208929_2_alg».proof.Proof.Gen.KernelIdeal.Value
import proofs.«178592_j78769700208929_2_alg».proof.Proof.Payload
import proofs.«178592_j78769700208929_2_alg».proof.Proof.Norms

noncomputable section

open scoped BigOperators

namespace Cert.KernelIdeal.Blocks

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx
open Cert.Distance

variable (m : (ℓ : Loc nD τ sig) → Buf (Elt Ideal) ℓ) (ρ : Dev nD → PrngReg)

theorem zeros : (![0, 0] : Fin 2 → Nat) = fun _ => 0 := funext fun a => by fin_cases a <;> rfl

/-- Row p of row block a of x, and row q of row block b of y, as rows of the whole arrays. -/
def rowAt (a : Fin 4) (p : Fin 1024) : Fin 4096 := ⟨a.val * 1024 + p.val, by omega⟩
def colAt (b : Fin 16) (q : Fin 512) : Fin 8192 := ⟨b.val * 512 + q.val, by omega⟩

/-- One block of the result from blocks of the arguments: if the loaded blocks are row block a of x, row block b of
    y, and the matching pieces of the two norm arrays, the stored block at (p, q) is the result's entry at row
    1024·a + p and column 512·b + q.  The sum over the columns is the same sum on both sides; the subtraction from the
    zero word is the negation. -/
theorem block_entry (x : (⟨2, ![4096, 1024]⟩ : Shape).Idx → EReal) (y : (⟨2, ![8192, 1024]⟩ : Shape).Idx → EReal)
    (bx : Vec Ideal S1024x1024 .f32) (bY : Vec Ideal S512x1024 .f32) (nx : Vec Ideal S1024x1 .f32) (ny : Vec Ideal S1x512 .f32)
    (a : Fin 4) (b : Fin 16)
    (hx : ∀ (p : Fin 1024) (k : Fin 1024), bx (ix2 p k) = x (ix2 (rowAt a p) k))
    (hy : ∀ (q : Fin 512) (k : Fin 1024), bY (ix2 q k) = y (ix2 (colAt b q) k))
    (hnx : ∀ p : Fin 1024, nx (ix2 p (0 : Fin 1)) = rowSq x (rowAt a p))
    (hny : ∀ q : Fin 512, ny (ix2 (0 : Fin 1) q) = rowSq y (colAt b q))
    (p : Fin 1024) (q : Fin 512) :
    k0_pay1 (F := Ideal) bx bY nx ny (ix2 p q) = entry x y (rowAt a p) (colAt b q) := by
  rw [Payload.pay_apply, hnx, hny, zero_word_sub]
  unfold entry cross
  simp only [hx, hy]

/-- The printed index maps over the 64 grid points: which block of each array a point stages. -/
theorem idx_facts : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0
    ∧ win0_3.index t (0 : Fin 2) = 0 ∧ win0_3.index t (1 : Fin 2) = t.val % 16
    ∧ win0_4.index t (0 : Fin 2) = t.val / 16 ∧ win0_4.index t (1 : Fin 2) = t.val % 16 :=
  (by decide +kernel : ∀ t : Fin grid0.N, _)

/-- The block row and block column of a grid point. -/
def blockRow (t : Fin cfg0.N) : Fin 4 := ⟨t.val / 16, by have h := t.isLt; have hN : cfg0.N = 64 := N_0; omega⟩
def blockCol (t : Fin cfg0.N) : Fin 16 := ⟨t.val % 16, by omega⟩

/-- WHAT POINT t WRITES BACK is block t of the negated expanded squared distance of the argument arrays. -/
theorem flushed_eq (c : Dev nD) (t : Fin cfg0.N) :
    (dats m 0 c).flushed 4 t = ((cfg0.win 4).blk t).view.read (Elt Ideal)
      (negSqDist (m ((c : Thread nD τ).loc main_arg0)) (m ((c : Thread nD τ).loc main_arg1))) := by
  rw [Value.flushed4]
  unfold out0_4
  rw [View.canon_unit_zero zeros]
  simp only [View.ld_unit_zero (S := S1024x1024) zeros, View.ld_unit_zero (S := S512x1024) zeros,
    View.ld_unit_zero (S := S1024x1) zeros, View.ld_unit_zero (S := S1x512) zeros]
  obtain ⟨e00, e01, e10, e11, e20, e21, e30, e31, e40, e41⟩ := idx_facts t
  refine funext fun (j : S1024x512.Idx) => ?_
  obtain ⟨p, q, rfl⟩ : ∃ (p : Fin 1024) (q : Fin 512), j = ix2 p q := ⟨j 0, j 1, eq_ix2 j⟩
  have hout : ((cfg0.win 4).blk t).view.emb (ix2 p q) = (ix2 (rowAt (blockRow t) p) (colAt (blockCol t) q) : S4096x8192.Idx) := by
    funext ax; apply Fin.ext
    match ax with
    | ⟨0, _⟩ => show win0_4.index t (0 : Fin 2) * 1024 + 1 * p.val = (t.val / 16) * 1024 + p.val; rw [e40]; omega
    | ⟨1, _⟩ => show win0_4.index t (1 : Fin 2) * 512 + 1 * q.val = (t.val % 16) * 512 + q.val; rw [e41]; omega
  show k0_pay1 (F := Ideal) (iblk m c 0 t) (iblk m c 1 t) (iblk m c 2 t) (iblk m c 3 t) (ix2 p q)
    = negSqDist (m ((c : Thread nD τ).loc main_arg0)) (m ((c : Thread nD τ).loc main_arg1)) (((cfg0.win 4).blk t).view.emb (ix2 p q))
  rw [hout, negSqDist_ix2]
  refine block_entry _ _ _ _ _ _ (blockRow t) (blockCol t) (fun p' k => ?_) (fun q' k => ?_) (fun p' => ?_) (fun q' => ?_) p q
  · show V m c main_arg0 (((cfg0.win 0).blk t).view.emb (ix2 p' k)) = _
    rw [V_main_arg0]
    refine congrArg _ (funext fun ax => Fin.ext ?_)
    match ax with
    | ⟨0, _⟩ => show win0_0.index t (0 : Fin 2) * 1024 + 1 * p'.val = (t.val / 16) * 1024 + p'.val; rw [e00]; omega
    | ⟨1, _⟩ => show win0_0.index t (1 : Fin 2) * 1024 + 1 * k.val = k.val; rw [e01]; omega
  · show V m c main_arg1 (((cfg0.win 1).blk t).view.emb (ix2 q' k)) = _
    rw [V_main_arg1]
    refine congrArg _ (funext fun ax => Fin.ext ?_)
    match ax with
    | ⟨0, _⟩ => show win0_1.index t (0 : Fin 2) * 512 + 1 * q'.val = (t.val % 16) * 512 + q'.val; rw [e10]; omega
    | ⟨1, _⟩ => show win0_1.index t (1 : Fin 2) * 1024 + 1 * k.val = k.val; rw [e11]; omega
  · show V m c main_v2 (((cfg0.win 2).blk t).view.emb (ix2 p' (0 : Fin 1))) = _
    have he : ((cfg0.win 2).blk t).view.emb (ix2 p' (0 : Fin 1)) = (ix2 (rowAt (blockRow t) p') (0 : Fin 1) : S4096x1.Idx) := by
      funext ax; apply Fin.ext
      match ax with
      | ⟨0, _⟩ => show win0_2.index t (0 : Fin 2) * 1024 + 1 * p'.val = (t.val / 16) * 1024 + p'.val; rw [e20]; omega
      | ⟨1, _⟩ => show win0_2.index t (1 : Fin 2) * 1 + 1 * 0 = 0; rw [e21]
    rw [he]
    exact Norms.xnorm_apply m c _ _
  · show V m c main_v5 (((cfg0.win 3).blk t).view.emb (ix2 (0 : Fin 1) q')) = _
    have he : ((cfg0.win 3).blk t).view.emb (ix2 (0 : Fin 1) q') = (ix2 (0 : Fin 1) (colAt (blockCol t) q') : S1x8192.Idx) := by
      funext ax; apply Fin.ext
      match ax with
      | ⟨0, _⟩ => show win0_3.index t (0 : Fin 2) * 1 + 1 * 0 = 0; rw [e30]
      | ⟨1, _⟩ => show win0_3.index t (1 : Fin 2) * 512 + 1 * q'.val = (t.val % 16) * 512 + q'.val; rw [e31]; omega
    rw [he]
    exact Norms.ynorm_apply m c _ _

/-- An index of the output is in point t's block iff each coordinate is in the block's range on its axis. -/
theorem mem_blk (t : Fin cfg0.N) (i : S4096x8192.Idx) :
    i ∈ ((cfg0.win 4).blk t).view.set ↔ ∀ a : Fin 2, win0_4.index t a * S1024x512.size a ≤ (i a).val
      ∧ (i a).val < win0_4.index t a * S1024x512.size a + S1024x512.size a := by
  show i ∈ ((View.whole main_v6).slice (win0_4.rect t)).set ↔ _
  rw [View.set_slice_whole, Rect.mem_set_unit]
  exact Iff.rfl

/-- Every entry of the output lies in the block of the point at its block row and block column. -/
theorem cover (i : S4096x8192.Idx) :
    ∃ t : Fin cfg0.N, (cfg0.win 4).flush t = true ∧ i ∈ ((cfg0.win 4).blk t).view.set := by
  have hi0 : (i 0).val < 4096 := (i 0).isLt
  have hi1 : (i 1).val < 8192 := (i 1).isLt
  have hN : cfg0.N = 64 := N_0
  obtain ⟨t, ht⟩ : ∃ t : Fin cfg0.N, t.val = (i 0).val / 1024 * 16 + (i 1).val / 512 :=
    ⟨⟨(i 0).val / 1024 * 16 + (i 1).val / 512, by rw [hN]; omega⟩, rfl⟩
  obtain ⟨-, -, -, -, -, -, -, -, e40, e41⟩ := idx_facts t
  refine ⟨t, flush0_4 t, ?_⟩
  rw [mem_blk]
  intro a
  match a with
  | ⟨0, _⟩ =>
    show win0_4.index t (0 : Fin 2) * 1024 ≤ (i 0).val ∧ (i 0).val < win0_4.index t (0 : Fin 2) * 1024 + 1024
    rw [e40]; omega
  | ⟨1, _⟩ =>
    show win0_4.index t (1 : Fin 2) * 512 ≤ (i 1).val ∧ (i 1).val < win0_4.index t (1 : Fin 2) * 512 + 512
    rw [e41]; omega

/-- THE OUTPUT ARRAY after the run is the negated expanded squared distance of the argument arrays. -/
theorem final (c : Dev nD) :
    (dats m 0 c).arrAt 4 cfg0.N
      = negSqDist (m ((c : Thread nD τ).loc main_arg0)) (m ((c : Thread nD τ).loc main_arg1)) :=
  (dats m 0 c).arrAt_eq_of_cover 4 _ (fun t _ => flushed_eq m c t) cover

/-- The kernel's run, read: the result array at that function of the arguments, the arguments unchanged. -/
theorem run : θ_run defs (onTc (τ := τ) (main (F := Ideal))) ⟨m, fun _ => 0, ρ⟩ fun r => ∀ c : Dev nD,
      r.2.mem ((c : Thread nD τ).loc main_v6)
        = negSqDist (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Blocks

end
-- ==== Proof.RefDistance.lean ====
/-
  The reference computes the expanded squared distance, negated.

  Its seventeen host operations square x and y entrywise, sum each along the columns from the zero word, contract
  x with y along the columns, spread the x norms along the rows and the y norms along the columns of a [4096, 8192]
  array, and negate (norm_x - 2 · product + norm_y).  Read at entry (p, q) through the generated one-operation-at-a-time
  lemmas, every index those lemmas compose is row p of x, row q of y or a column k, so the term is `Distance.entry`.
-/
import proofs.«178592_j78769700208929_2_alg».proof.Proof.Gen.ReferenceIdeal.Read
import proofs.«178592_j78769700208929_2_alg».proof.Proof.Distance

noncomputable section

open scoped BigOperators

namespace Cert.ReferenceIdeal.RefDistance

open Cert.ReferenceIdeal Cert.ReferenceIdeal.Read Idealize.ShloMosaic Idealize.ShloMosaic.ValueIdx

/-- The x norm read at result entry (p, q) sums row p of x. -/
theorem idx_xnorm (p : Fin 4096) (q : Fin 8192) (k : Fin 1024) :
    idx_main_v1 (idx_main_v5 (idx_main_v8 (ix2 p q))) k = ix2 p k :=
  funext fun a => Fin.ext (by match a with | ⟨0, _⟩ => rfl | ⟨1, _⟩ => rfl)

/-- The y norm read at result entry (p, q) sums row q of y. -/
theorem idx_ynorm (p : Fin 4096) (q : Fin 8192) (k : Fin 1024) :
    idx_main_v3 (idx_main_v10 (idx_main_v11 (ix2 p q))) k = ix2 q k :=
  funext fun a => Fin.ext (by match a with | ⟨0, _⟩ => rfl | ⟨1, _⟩ => rfl)

/-- The contraction at (p, q) reads row p of x -/
theorem idx_left (p : Fin 4096) (q : Fin 8192) (k : Fin 1024) : lidx_main_v4 (ix2 p q) k = ix2 p k :=
  funext fun a => Fin.ext (by match a with | ⟨0, _⟩ => rfl | ⟨1, _⟩ => rfl)

/-- and row q of y. -/
theorem idx_right (p : Fin 4096) (q : Fin 8192) (k : Fin 1024) : ridx_main_v4 (ix2 p q) k = ix2 q k :=
  funext fun a => Fin.ext (by match a with | ⟨0, _⟩ => rfl | ⟨1, _⟩ => rfl)

/-- The reference's result is the negated expanded squared distance of the arguments' rows. -/
theorem result_eq (x : (⟨S4096x1024, .f32⟩ : BufTy).Contents (Elt Ideal)) (y : (⟨S8192x1024, .f32⟩ : BufTy).Contents (Elt Ideal)) :
    val_main_v13 (F := Ideal) x y = Cert.Distance.negSqDist x y := by
  funext i
  obtain ⟨p, q, rfl⟩ : ∃ (p : Fin 4096) (q : Fin 8192), i = ix2 p q := ⟨i 0, i 1, eq_ix2 i⟩
  rw [Cert.Distance.negSqDist_ix2]
  unfold Cert.Distance.entry Cert.Distance.rowSq Cert.Distance.cross
  rw [val_main_v13_apply, val_main_v12_apply, val_main_v9_apply, val_main_v8_apply, val_main_v5_apply, val_main_v1_apply,
    val_main_v7_apply, val_main_v6_apply, val_main_cst_1_apply, val_main_v4_apply, val_main_v11_apply, val_main_v10_apply,
    val_main_v3_apply]
  simp only [val_main_v0_apply, val_main_v2_apply, val_main_cst_apply, val_main_cst_0_apply, idx_xnorm, idx_ynorm,
    idx_left, idx_right, Ideal.hostNegf_def, Ideal.negf_def, Ideal.addf_def, Ideal.subf_def, Ideal.mulf_def, Ideal.ofBits_def]

end Cert.ReferenceIdeal.RefDistance

end
-- ==== Proof.lean ====
/-
  The kernel and its reference compute the same array: entry (p, q) is minus the expanded squared Euclidean
  distance of row p of x from row q of y,

      -((|x_p|² - 2 · ⟨x_p, y_q⟩) + |y_q|²).

  The kernel's program sums the squares of the rows of x and of y on the host, and on a 4 × 16 grid multiplies a
  block of 1024 rows of x by the transpose of a block of 512 rows of y, combining the product with the matching
  pieces of the two norm arrays and subtracting the whole from zero; its 64 output blocks tile the result.  The
  reference forms the same three terms on whole arrays and negates.  On the extended reals the two agree entry by
  entry with no condition on the inputs: each sum runs over the same 1024 columns in both programs, the literal 2
  is the same word, and subtracting from the zero word is negation.  The idealization rewrote nothing, so the
  kernel as printed and its idealization are the same text.
-/
import proofs.«178592_j78769700208929_2_alg».proof.Defs
import proofs.«178592_j78769700208929_2_alg».proof.Proof.Gen.Kernel
import proofs.«178592_j78769700208929_2_alg».proof.Proof.Gen.Kernel.Skeleton
import proofs.«178592_j78769700208929_2_alg».proof.Proof.Gen.Kernel.Launch
import proofs.«178592_j78769700208929_2_alg».proof.Proof.Gen.Kernel.Points
import proofs.«178592_j78769700208929_2_alg».proof.Proof.Gen.Kernel.Frame
import proofs.«178592_j78769700208929_2_alg».proof.Proof.Gen.KernelIdeal
import proofs.«178592_j78769700208929_2_alg».proof.Proof.Gen.KernelIdeal.Skeleton
import proofs.«178592_j78769700208929_2_alg».proof.Proof.Gen.KernelIdeal.Launch
import proofs.«178592_j78769700208929_2_alg».proof.Proof.Gen.KernelIdeal.Points
import proofs.«178592_j78769700208929_2_alg».proof.Proof.Gen.KernelIdeal.Frame
import proofs.«178592_j78769700208929_2_alg».proof.Proof.Gen.ReferenceIdeal
import proofs.«178592_j78769700208929_2_alg».proof.Proof.Gen.KernelIdeal.Value
import proofs.«178592_j78769700208929_2_alg».proof.Proof.Gen.ReferenceIdeal.Run
import proofs.«178592_j78769700208929_2_alg».proof.Proof.Gen.ReferenceIdeal.Read
import proofs.«178592_j78769700208929_2_alg».proof.Proof.Gen.Pre_finite_inputs
import proofs.«178592_j78769700208929_2_alg».proof.Proof.Blocks
import proofs.«178592_j78769700208929_2_alg».proof.Proof.RefDistance
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a list of host operations: its run ends with the arguments unchanged. -/
theorem frame_reference : Cert.frame_ReferenceIdeal := fun m ρ _ =>
  (θ_run Cert.ReferenceIdeal.defs _ _).mono (fun _ h c => (h c).2) (Cert.ReferenceIdeal.Value.run (F := Ideal) m ρ)

/-- Both runs end with the result array at the negated expanded squared distance of the (agreeing) arguments. -/
theorem algebraic : Cert.algebraic_KernelIdeal_ReferenceIdeal := by
  intro m ρ m' ρ' _ hagree
  refine ⟨fun c => Cert.Distance.negSqDist (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefDistance.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
